-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8x512 : Shape := ⟨3, ![256, 8, 512]⟩
abbrev S8 : Shape := ⟨1, ![8]⟩
abbrev S8x64x512 : Shape := ⟨3, ![8, 64, 512]⟩
abbrev S1024x128 : Shape := ⟨2, ![1024, 128]⟩
abbrev S128 : Shape := ⟨1, ![128]⟩
abbrev S_ : Shape := ⟨0, ![]⟩

class Facts : Prop where
  bcast_S_S256x8x512 : S_.BroadcastsInDim S256x8x512 (![] : Fin 0 → Fin S256x8x512.rank)
  reducesTo_S256x8x512_S_d0_1_2 : S256x8x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S256x8x512 .f32) (main_arg1 : IVec S8 32) (main_arg2 : FVec F S8x64x512 .f32) (main_arg3 : IVec S8 32) (main_arg4 : FVec F S1024x128 .f32) (main_arg5 : FVec F S128 .f32) : IVec S_ 1 :=
  let main_v0 : FVec F S256x8x512 .f32 := Host.absf main_arg0
  let main_cst : FVec F S_ .f32 := constant S_ .f32 0x7F800000#32
  let main_v1 : FVec F S256x8x512 .f32 := broadcastInDim S256x8x512 ![] bcast_S_S256x8x512 main_cst
  let main_v2 : IVec S256x8x512 1 := cmpf .olt main_v0 main_v1
  let main_c : IVec S_ 1 := constantI S_ 1 1#1
  let main_v3 : IVec S_ 1 := (fun x v => Host.reduce IntOp.andi x v reducesTo_S256x8x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x128 .f32 := Host.absf main_arg4
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S256x8x512 : Shape := ⟨3, ![256, 8, 512]⟩
abbrev S8 : Shape := ⟨1, ![8]⟩
abbrev S8x64x512 : Shape := ⟨3, ![8, 64, 512]⟩
abbrev S1024x128 : Shape := ⟨2, ![1024, 128]⟩
abbrev S128 : Shape := ⟨1, ![128]⟩
abbrev S8x256x512 : Shape := ⟨3, ![8, 256, 512]⟩
abbrev S512x128 : Shape := ⟨2, ![512, 128]⟩
abbrev S8x256x64x128 : Shape := ⟨4, ![8, 256, 64, 128]⟩
abbrev S1x128x512 : Shape := ⟨3, ![1, 128, 512]⟩
abbrev S1x64x512 : Shape := ⟨3, ![1, 64, 512]⟩
abbrev S1x128x64x128 : Shape := ⟨4, ![1, 128, 64, 128]⟩
abbrev S128x512 : Shape := ⟨2, ![128, 512]⟩
abbrev S64x512 : Shape := ⟨2, ![64, 512]⟩
abbrev S128x128 : Shape := ⟨2, ![128, 128]⟩
abbrev S64x128 : Shape := ⟨2, ![64, 128]⟩
abbrev S128x1x128 : Shape := ⟨3, ![128, 1, 128]⟩
abbrev S1x64x128 : Shape := ⟨3, ![1, 64, 128]⟩
abbrev S128x64x128 : Shape := ⟨3, ![128, 64, 128]⟩
abbrev S1x1x128 : Shape := ⟨3, ![1, 1, 128]⟩

abbrev nBuf : Space → Nat
  | .hbm => 10
  | .vmem => 9
  | .smem => 0
  | _ => 0

abbrev bufTy : (tb : Table) → Fin (tcTables nBuf tb) → BufTy
  | .hbm, ⟨0, _⟩ => ⟨S256x8x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x128, .f32⟩
  | .hbm, ⟨5, _⟩ => ⟨S128, .f32⟩
  | .hbm, ⟨6, _⟩ => ⟨S8x256x512, .f32⟩
  | .hbm, ⟨7, _⟩ => ⟨S512x128, .f32⟩
  | .hbm, ⟨8, _⟩ => ⟨S512x128, .f32⟩
  | .hbm, ⟨9, _⟩ => ⟨S8x256x64x128, .f32⟩
  | .local _ .vmem, ⟨0, _⟩ => ⟨S1x128x512, .f32⟩
  | .local _ .vmem, ⟨1, _⟩ => ⟨S1x128x512, .f32⟩
  | .local _ .vmem, ⟨2, _⟩ => ⟨S1x64x512, .f32⟩
  | .local _ .vmem, ⟨3, _⟩ => ⟨S1x64x512, .f32⟩
  | .local _ .vmem, ⟨4, _⟩ => ⟨S512x128, .f32⟩
  | .local _ .vmem, ⟨5, _⟩ => ⟨S512x128, .f32⟩
  | .local _ .vmem, ⟨6, _⟩ => ⟨S128, .f32⟩
  | .local _ .vmem, ⟨7, _⟩ => ⟨S1x128x64x128, .f32⟩
  | .local _ .vmem, ⟨8, _⟩ => ⟨S1x128x64x128, .f32⟩
  | _, _ => ⟨S256x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x8x512_S8x256x512_1_0_2 : S256x8x512.Transposes [1, 0, 2] S8x256x512
  slices_S1024x128_S512x128_0_0 : S1024x128.Slices ![0, 0] S512x128
  slices_S1024x128_S512x128_512_0 : S1024x128.Slices ![512, 0] S512x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128x128_S128x1x128 : S128x128.ShapeCasts S128x1x128
  shapeCasts_S64x128_S1x64x128 : S64x128.ShapeCasts S1x64x128
  broadcasts_S128x1x128_S128x64x128 : S128x1x128.Broadcasts S128x64x128
  broadcasts_S1x64x128_S128x64x128 : S1x64x128.Broadcasts S128x64x128
  shapeCasts_S128_S1x1x128 : S128.ShapeCasts S1x1x128
  broadcasts_S1x1x128_S128x64x128 : S1x1x128.Broadcasts S128x64x128
  inb_S1x128x64x128_S1x128x64x128_0_0_0_0 : ∀ a, (![0, 0, 0, 0] : Fin 4 → Nat) a + S1x128x64x128.size a ≤ S1x128x64x128.size a
  h_S1x128x64x128 : 0 < S1x128x64x128.numel
  shapeCasts_S1x128x64x128_S128x64x128 : S1x128x64x128.ShapeCasts S128x64x128
  shapeCasts_S128x64x128_S1x128x64x128 : S128x64x128.ShapeCasts S1x128x64x128
  dot_S128x512_S512x128_S128x128_1_0_0_1_n_n_wf : DotDims.WF S128x512 S512x128 S128x128 [1] [0] [0] [1] [] []
  dot_S64x512_S512x128_S64x128_1_0_0_1_n_n_wf : DotDims.WF S64x512 S512x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x256x512.size a
  hwx0_0 : ∀ i : grid0.Coords, EltTy.bits .f32 = 32 ∨ (Rect.block (s := S8x256x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x64x128.size a ≤ S8x256x64x128.size a
  hwx0_5 : ∀ i : grid0.Coords, EltTy.bits .f32 = 32 ∨ (Rect.block (s := S8x256x64x128) S1x128x64x128.size (cc0_transform_5 i) (hinb0_5 i)).WholeWords (EltTy.packing .f32)

variable [Facts₀]

def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf

abbrev win0_0 : Pipeline.Window sig grid0 :=
  Pipeline.Window.ofSpec (Memref.whole main_v0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x8x512 : Shape := ⟨3, ![256, 8, 512]⟩
abbrev S8 : Shape := ⟨1, ![8]⟩
abbrev S8x64x512 : Shape := ⟨3, ![8, 64, 512]⟩
abbrev S1024x128 : Shape := ⟨2, ![1024, 128]⟩
abbrev S128 : Shape := ⟨1, ![128]⟩
abbrev S512x128 : Shape := ⟨2, ![512, 128]⟩
abbrev S128x256x8 : Shape := ⟨3, ![128, 256, 8]⟩
abbrev S8x256x128 : Shape := ⟨3, ![8, 256, 128]⟩
abbrev S8x64x128 : Shape := ⟨3, ![8, 64, 128]⟩
abbrev S8x256x1x128 : Shape := ⟨4, ![8, 256, 1, 128]⟩
abbrev S8x1x64x128 : Shape := ⟨4, ![8, 1, 64, 128]⟩
abbrev S8x256x64x128 : Shape := ⟨4, ![8, 256, 64, 128]⟩
abbrev S1x1x1x128 : Shape := ⟨4, ![1, 1, 1, 128]⟩

abbrev nBuf : Space → Nat
  | .hbm => 19
  | .vmem => 0
  | .smem => 0
  | _ => 0

abbrev bufTy : (tb : Table) → Fin (tcTables nBuf tb) → BufTy
  | .hbm, ⟨0, _⟩ => ⟨S256x8x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x128, .f32⟩
  | .hbm, ⟨5, _⟩ => ⟨S128, .f32⟩
  | .hbm, ⟨6, _⟩ => ⟨S512x128, .f32⟩
  | .hbm, ⟨7, _⟩ => ⟨S512x128, .f32⟩
  | .hbm, ⟨8, _⟩ => ⟨S128x256x8, .f32⟩
  | .hbm, ⟨9, _⟩ => ⟨S8x256x128, .f32⟩
  | .hbm, ⟨10, _⟩ => ⟨S8x64x128, .f32⟩
  | .hbm, ⟨11, _⟩ => ⟨S8x256x1x128, .f32⟩
  | .hbm, ⟨12, _⟩ => ⟨S8x1x64x128, .f32⟩
  | .hbm, ⟨13, _⟩ => ⟨S8x256x64x128, .f32⟩
  | .hbm, ⟨14, _⟩ => ⟨S8x256x64x128, .f32⟩
  | .hbm, ⟨15, _⟩ => ⟨S8x256x64x128, .f32⟩
  | .hbm, ⟨16, _⟩ => ⟨S1x1x1x128, .f32⟩
  | .hbm, ⟨17, _⟩ => ⟨S8x256x64x128, .f32⟩
  | .hbm, ⟨18, _⟩ => ⟨S8x256x64x128, .f32⟩
  | _, _ => ⟨S256x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S1024x128_S512x128_0_0 : S1024x128.Slices ![0, 0] S512x128
  slices_S1024x128_S512x128_512_0 : S1024x128.Slices ![512, 0] S512x128
  transposes_S128x256x8_S8x256x128_2_1_0 : S128x256x8.Transposes [2, 1, 0] S8x256x128
  bcast_S8x256x128_S8x256x1x128_0_1_3 : S8x256x128.BroadcastsInDim S8x256x1x128 (![0, 1, 3] : Fin 3 → Fin S8x256x1x128.rank)
  bcast_S8x64x128_S8x1x64x128_0_2_3 : S8x64x128.BroadcastsInDim S8x1x64x128 (![0, 2, 3] : Fin 3 → Fin S8x1x64x128.rank)
  bcast_S8x256x1x128_S8x256x64x128_0_1_2_3 : S8x256x1x128.BroadcastsInDim S8x256x64x128 (![0, 1, 2, 3] : Fin 4 → Fin S8x256x64x128.rank)
  bcast_S8x1x64x128_S8x256x64x128_0_1_2_3 : S8x1x64x128.BroadcastsInDim S8x256x64x128 (![0, 1, 2, 3] : Fin 4 → Fin S8x256x64x128.rank)
  bcast_S128_S1x1x1x128_3 : S128.BroadcastsInDim S1x1x1x128 (![3] : Fin 1 → Fin S1x1x1x128.rank)
  bcast_S1x1x1x128_S8x256x64x128_0_1_2_3 : S1x1x1x128.BroadcastsInDim S8x256x64x128 (![0, 1, 2, 3] : Fin 4 → Fin S8x256x64x128.rank)
  dot_S512x128_S256x8x512_S128x256x8_0_2_1_01_n_n_wf : DotDims.WF S512x128 S256x8x512 S128x256x8 [0] [2] [1] [0, 1] [] []
  dot_S8x64x512_S512x128_S8x64x128_2_0_01_1_n_n_wf : DotDims.WF S8x64x512 S512x128 S8x64x128 [2] [0] [0, 1] [1] [] []

variable [Facts₀]

def dot_S512x128_S256x8x512_S128x256x8_0_2_1_01_n_n : DotDims S512x128 S256x8x512 S128x256x8 where
  lhsContracting := [0]
  rhsContracting := [2]
  lhsNonContracting := [1]
  rhsNonContracting := [0, 1]
  lhsBatch := []
  rhsBatch := []
  wf := dot_S512x128_S256x8x512_S128x256x8_0_2_1_01_n_n_wf
def dot_S8x64x512_S512x128_S8x64x128_2_0_01_1_n_n : DotDims S8x64x512 S512x128 S8x64x128 where
  lhsContracting := [2]
  rhsContracting := [0]
  lhsNonContracting := [0, 1]
  rhsNonContracting := [1]
  lhsBatch := []
  rhsBatch := []
  wf := dot_S8x64x512_S512x128_S8x64x128_2_0_01_1_n_n_wf

class Facts : Prop extends Facts₀ where

variable [Facts]
-- ==== Proof.JointSpec.lean ====
/-
  The joint network's output as ONE function of its four float arguments, on the extended reals.

  Two sequences are projected to a common width and every frame of the first is paired with every frame of the second:
  for batch row `n`, frame `t` of `f` (stored time-major, `[256, 8, 512]`), frame `u` of `g` (`[8, 64, 512]`) and output
  channel `v`,

      out (n, t, u, v) = ( Σ_k f (t, n, k) · W (k, v)  +  Σ_k g (n, u, k) · W (512 + k, v) )  +  b v,

  the upper half of the weight matrix `W : [1024, 128]` applied to `f`, its lower half to `g`, both sums over the 512
  features, the bias added last. The two projections are added first and the bias to their sum: that grouping is part of
  the function (addition on the extended reals is associative, so nothing hangs on it, but both programs use this one).
-/
import Idealize.ShloMosaic.PureOps.Ideal
import Idealize.ShloMosaic.Lib.ValueIdx

noncomputable section

open scoped BigOperators

namespace Cert.Joint

open Idealize.ShloMosaic Idealize.ShloMosaic.ValueIdx

/-- Row `k` of the weight matrix's upper half (rows 0 … 511: the weights applied to `f`). -/
abbrev upperRow (k : Fin 512) : Fin 1024 := ⟨k.val, by have := k.isLt; omega⟩

/-- Row `512 + k` of the weight matrix, in its lower half (rows 512 … 1023: the weights applied to `g`). -/
abbrev lowerRow (k : Fin 512) : Fin 1024 := ⟨512 + k.val, by have := k.isLt; omega⟩

/-- The output entry at batch row `n`, frames `t` and `u`, channel `v`. -/
def jointAt (f : (⟨3, ![256, 8, 512]⟩ : Shape).Idx → EReal) (g : (⟨3, ![8, 64, 512]⟩ : Shape).Idx → EReal)
    (W : (⟨2, ![1024, 128]⟩ : Shape).Idx → EReal) (b : (⟨1, ![128]⟩ : Shape).Idx → EReal)
    (n : Fin 8) (t : Fin 256) (u : Fin 64) (v : Fin 128) : EReal :=
  (∑ k : Fin 512, f (ix3 t n k) * W (ix2 (upperRow k) v) + ∑ k : Fin 512, g (ix3 n u k) * W (ix2 (lowerRow k) v))
    + b (ix1 v)

/-- The whole output array `[8, 256, 64, 128]`. -/
def joint (f : (⟨3, ![256, 8, 512]⟩ : Shape).Idx → EReal) (g : (⟨3, ![8, 64, 512]⟩ : Shape).Idx → EReal)
    (W : (⟨2, ![1024, 128]⟩ : Shape).Idx → EReal) (b : (⟨1, ![128]⟩ : Shape).Idx → EReal) :
    (⟨4, ![8, 256, 64, 128]⟩ : Shape).Idx → EReal :=
  fun i => jointAt f g W b (i 0) (i 1) (i 2) (i 3)

/-- The array at an index written by coordinates is the entry at those coordinates. -/
theorem joint_ix4 (f : (⟨3, ![256, 8, 512]⟩ : Shape).Idx → EReal) (g : (⟨3, ![8, 64, 512]⟩ : Shape).Idx → EReal)
    (W : (⟨2, ![1024, 128]⟩ : Shape).Idx → EReal) (b : (⟨1, ![128]⟩ : Shape).Idx → EReal)
    (n : Fin 8) (t : Fin 256) (u : Fin 64) (v : Fin 128) :
    joint f g W b (ix4 n t u v) = jointAt f g W b n t u v := rfl

end Cert.Joint

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.LibPairwise.lean ====
/-
  Layout forms read at an index written by coordinates, for arrays that pair every row of one operand with every row of
  another: a middle unit axis added by a shape cast, and a unit axis (the middle one, or the leading one) filled by a
  broadcast. Each is the library's general lemma (a shape cast keeps the row-major position; a broadcast reads `0` on
  the operand's unit axes) at the shapes `[a, c]`, `[a, 1, c]`, `[1, b, c]`, `[a, b, c]`.
-/
import Idealize.ShloMosaic.Lib.Pipeline.Value
import Idealize.ShloMosaic.Lib.ValueIdx

namespace Cert.LibPairwise

open Idealize.ShloMosaic Idealize.ShloMosaic.ValueIdx

variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`: every `j` sees
    the same row. (`hb`: the filled axis is a real one; the other two extents may be anything.) -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the whole operand. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibPairwise
-- ==== Proof.LibBiasLayout.lean ====
/-
  A vector laid along the last axis of a rank-3 array, read at an index written by coordinates: a shape cast
  `[c] → [1, 1, c]` (two leading unit axes added) and a broadcast `[1, 1, c] → [a, b, c]` (both filled). Together they
  are how a bias `b[None, None, :]` is added to every row of every plane. Each is the library's general lemma (a shape
  cast keeps the row-major position; a broadcast reads `0` on the operand's unit axes) at these shapes.
-/
import Idealize.ShloMosaic.Lib.Pipeline.Value
import Idealize.ShloMosaic.Lib.ValueIdx

namespace Cert.LibBiasLayout

open Idealize.ShloMosaic Idealize.ShloMosaic.ValueIdx

variable {α : Type}

/-- A `[c]` vector cast to `[1, 1, c]` reads, at `(y, z, k)`, the operand at `k`, whatever the unit coordinates. -/
theorem shapeCast_c_11c_apply {c : ℕ} (x : (⟨1, ![c]⟩ : Shape).Idx → α)
    (h : (⟨1, ![c]⟩ : Shape).ShapeCasts ⟨3, ![1, 1, c]⟩) (y z : Fin 1) (k : Fin c) :
    shapeCast ⟨3, ![1, 1, c]⟩ x h (ix3 y z k) = x (ix1 k) :=
  shapeCast_apply x h _ _ (by
    have hy : y.val = 0 := by omega
    have hz : z.val = 0 := by omega
    rw [Shape.rowMajor_val_three, Shape.rowMajor_val_one]
    show k.val = (y.val * 1 + z.val) * c + k.val
    simp only [hy, hz, Nat.zero_mul, Nat.zero_add])

/-- A `[1, 1, c]` array broadcast to `[a, b, c]` reads, at `(i, j, k)`, the operand at `(0, 0, k)`: every row of every
    plane sees the same vector. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibBiasLayout
-- ==== Proof.JointBlock.lean ====
/-
  What one grid point computes, read at an index.

  The body loads a block of 128 frames of `f` (`[1, 128, 512]`: one batch row), the 64 frames of `g` for that batch row
  (`[1, 64, 512]`), the two halves of the weight matrix (`[512, 128]` each) and the bias, drops the leading unit axes,
  narrows the four matrices (a change of format: the identity on the extended reals), multiplies frames by weights on the
  matrix unit from a zero accumulator, lays the first product along a new middle axis and the second along a new leading
  axis, repeats both to `[128, 64, 128]`, adds them, adds the bias repeated over the first two axes, and puts the leading
  unit axis back. At `(·, p, u, v)` that is

      ( Σ_k x0 (0, p, k) · x2 (k, v)  +  Σ_k x1 (0, u, k) · x3 (k, v) )  +  x4 v.
-/
import proofs.«106387_j12635793785610_1_alg».proof.Proof.Gen.KernelIdeal.Skeleton
import proofs.«106387_j12635793785610_1_alg».proof.Proof.LibMatmulPlain
import proofs.«106387_j12635793785610_1_alg».proof.Proof.LibPairwise
import proofs.«106387_j12635793785610_1_alg».proof.Proof.LibBiasLayout
import Idealize.ShloMosaic.Lib.ValueLayout
import Idealize.ShloMosaic.Lib.Pipeline.Value

noncomputable section

open scoped BigOperators

namespace Cert.KernelIdeal.JointBlock

open Cert.KernelIdeal Cert.KernelIdeal.Gen Idealize.ShloMosaic Idealize.ShloMosaic.ValueIdx

/-- One block of frames times one half of the weights: the leading unit axis dropped, both operands narrowed, the product
    into the zero accumulator. At `(p, v)` it is the sum over the 512 features. -/
theorem framesTimesWeights (x0 : FVec Ideal S1x128x512 .f32) (x2 : FVec Ideal S512x128 .f32) (p v : Fin 128) :
    matmul dot_S128x512_S512x128_S128x128_1_0_0_1_n_n none
        (truncf .bf16 (shapeCast S128x512 x0 shapeCasts_S1x128x512_S128x512) bitsLt_bf16_f32)
        (truncf .bf16 (shapeCast S512x128 x2 shapeCasts_S512x128_S512x128) bitsLt_bf16_f32)
        (constant (F := Ideal) S128x128 .f32 0x00000000#32) (ix2 p v)
      = ∑ k : Fin 512, x0 (ix3 (0 : Fin 1) p k) * x2 (ix2 k v) := by
  refine (Cert.LibMatmulPlain.matmul_plain_zero_apply (M := 128) (K := 512) (N := 128) none _ _ p v).trans ?_
  refine Finset.sum_congr rfl fun k _ => ?_
  rw [truncf_apply, truncf_apply, shapeCast_1ab_ab_apply, shapeCast_self]

/-- The same for the 64 frames of the second sequence. -/
theorem framesTimesWeights' (x1 : FVec Ideal S1x64x512 .f32) (x3 : FVec Ideal S512x128 .f32) (u : Fin 64) (v : Fin 128) :
    matmul dot_S64x512_S512x128_S64x128_1_0_0_1_n_n none
        (truncf .bf16 (shapeCast S64x512 x1 shapeCasts_S1x64x512_S64x512) bitsLt_bf16_f32)
        (truncf .bf16 (shapeCast S512x128 x3 shapeCasts_S512x128_S512x128) bitsLt_bf16_f32)
        (constant (F := Ideal) S64x128 .f32 0x00000000#32) (ix2 u v)
      = ∑ k : Fin 512, x1 (ix3 (0 : Fin 1) u k) * x3 (ix2 k v) := by
  refine (Cert.LibMatmulPlain.matmul_plain_zero_apply (M := 64) (K := 512) (N := 128) none _ _ u v).trans ?_
  refine Finset.sum_congr rfl fun k _ => ?_
  rw [truncf_apply, truncf_apply, shapeCast_1ab_ab_apply, shapeCast_self]

/-- THE BLOCK a grid point stores, at `(z, p, u, v)`: the two projections added, then the bias. -/
theorem pay_apply (x0 : FVec Ideal S1x128x512 .f32) (x1 : FVec Ideal S1x64x512 .f32) (x2 x3 : FVec Ideal S512x128 .f32)
    (x4 : FVec Ideal S128 .f32) (z : Fin 1) (p : Fin 128) (u : Fin 64) (v : Fin 128) :
    k0_pay1 (F := Ideal) x0 x1 x2 x3 x4 (ix4 z p u v)
      = (∑ k : Fin 512, x0 (ix3 (0 : Fin 1) p k) * x2 (ix2 k v) + ∑ k : Fin 512, x1 (ix3 (0 : Fin 1) u k) * x3 (ix2 k v))
        + x4 (ix1 v) := by
  unfold k0_pay1
  refine (shapeCast_abc_1abc_apply _ _ z p u v).trans ?_
  refine (addf_apply _ _ (ix3 p u v)).trans ?_
  refine congrArg₂ (· + ·) ((addf_apply _ _ (ix3 p u v)).trans (congrArg₂ (· + ·) ?_ ?_)) ?_
  · refine (Cert.LibPairwise.broadcastTo_a1c_abc_apply _ _ p u v).trans ?_
    refine (Cert.LibPairwise.shapeCast_ac_a1c_apply _ _ p (0 : Fin 1) v).trans ?_
    exact framesTimesWeights x0 x2 p v
  · refine (Cert.LibPairwise.broadcastTo_1bc_abc_apply _ _ p u v).trans ?_
    refine (shapeCast_ab_1ab_apply _ _ (0 : Fin 1) u v).trans ?_
    exact framesTimesWeights' x1 x3 u v
  · refine (Cert.LibBiasLayout.broadcastTo_11c_abc_apply _ _ p u v).trans ?_
    exact Cert.LibBiasLayout.shapeCast_c_11c_apply _ _ (0 : Fin 1) (0 : Fin 1) v

end Cert.KernelIdeal.JointBlock

end
-- ==== Proof.RegionEntry.lean ====
/-
  The arrays the region finds, read at an index.

  Before the kernel is launched the host turns `f` from time-major `[256, 8, 512]` to batch-major `[8, 256, 512]` (axes 0
  and 1 exchanged) and cuts the weight matrix `[1024, 128]` into its upper rows 0 … 511 and its lower rows 512 … 1023.
  So, when the region is entered, the first array at `(n, t, k)` is `f` at `(t, n, k)`, the second at `(k, v)` is the weight
  matrix at `(k, v)`, and the third at `(k, v)` is the weight matrix at `(512 + k, v)`. `g` and the bias are staged as
  launched.
-/
import proofs.«106387_j12635793785610_1_alg».proof.Proof.Gen.KernelIdeal.Frame
import proofs.«106387_j12635793785610_1_alg».proof.Proof.JointSpec
import Idealize.ShloMosaic.Lib.StableHlo.Run
import Idealize.ShloMosaic.Lib.ValueLayout
import Idealize.ShloMosaic.Lib.Pipeline.Value

noncomputable section

namespace Cert.KernelIdeal.RegionEntry

open Cert.KernelIdeal Cert.KernelIdeal.Gen Cert.Joint Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The batch-major copy of `f` is `f` with its first two axes exchanged. -/
theorem frames_eq (c : Dev nD) :
    (V m c main_v0 : S8x256x512.Idx → EReal)
      = transpose S8x256x512 [1, 0, 2] (m ((c : Thread nD τ).loc main_arg0)) transposes_S256x8x512_S8x256x512_1_0_2 := by
  dsimp only [Gen.V, Gen.hostOps0]; after_results

/-- The first weight array is the weight matrix's rows from 0. -/
theorem upper_eq (c : Dev nD) :
    (V m c main_v1 : S512x128.Idx → EReal)
      = extractStridedSlice S512x128 ![0, 0] (m ((c : Thread nD τ).loc main_arg4)) slices_S1024x128_S512x128_0_0 := by
  dsimp only [Gen.V, Gen.hostOps0]; after_results

/-- The second weight array is the weight matrix's rows from 512. -/
theorem lower_eq (c : Dev nD) :
    (V m c main_v2 : S512x128.Idx → EReal)
      = extractStridedSlice S512x128 ![512, 0] (m ((c : Thread nD τ).loc main_arg4)) slices_S1024x128_S512x128_512_0 := by
  dsimp only [Gen.V, Gen.hostOps0]; after_results

/-- Frame `t` of batch row `n`, feature `k`, of the batch-major copy is `f (t, n, k)`. -/
theorem frames_apply (c : Dev nD) (n : Fin 8) (t : Fin 256) (k : Fin 512) :
    (V m c main_v0 : S8x256x512.Idx → EReal) (ix3 n t k)
      = (m ((c : Thread nD τ).loc main_arg0) : S256x8x512.Idx → EReal) (ix3 t n k) := by
  rw [frames_eq]
  exact transpose_apply _ _ _ _ _ (fun b => match b with
    | ⟨0, _⟩ => rfl
    | ⟨1, _⟩ => rfl
    | ⟨2, _⟩ => rfl)

/-- Row `k` of the first weight array is row `k` of the weight matrix. -/
theorem upper_apply (c : Dev nD) (k : Fin 512) (v : Fin 128) :
    (V m c main_v1 : S512x128.Idx → EReal) (ix2 k v)
      = (m ((c : Thread nD τ).loc main_arg4) : S1024x128.Idx → EReal) (ix2 (upperRow k) v) := by
  rw [upper_eq]
  exact slice2_axis0_apply 0 _ _ k v (upperRow k) (Nat.zero_add _).symm

/-- Row `k` of the second weight array is row `512 + k` of the weight matrix. -/
theorem lower_apply (c : Dev nD) (k : Fin 512) (v : Fin 128) :
    (V m c main_v2 : S512x128.Idx → EReal) (ix2 k v)
      = (m ((c : Thread nD τ).loc main_arg4) : S1024x128.Idx → EReal) (ix2 (lowerRow k) v) := by
  rw [lower_eq]
  exact slice2_axis0_apply 512 _ _ k v (lowerRow k) rfl

end Cert.KernelIdeal.RegionEntry

end
-- ==== Proof.JointArray.lean ====
/-
  From the blocks the grid points write to the whole output array.

  The grid is 8 × 2: point `(n, s)` takes batch row `n` and the half `s` of the 256 frames of `f`, and writes block
  `(n, s, 0, 0)` of the output `[8, 256, 64, 128]` — batch row `n`, frames `128·s … 128·s + 127`, every frame of `g`, every
  channel. Its input blocks are rows of the arrays the region finds: block `(n, s, 0)` of the batch-major copy of `f`,
  block `(n, 0, 0)` of `g`, and the two weight arrays and the bias whole. So the block it stores is the joint function
  restricted to its rectangle; the sixteen rectangles cover the output (frame `t` of batch row `n` belongs to point
  `(n, t / 128)`); hence the output array ends holding the joint function of the arguments.
-/
import proofs.«106387_j12635793785610_1_alg».proof.Proof.Gen.KernelIdeal.Value
import proofs.«106387_j12635793785610_1_alg».proof.Proof.JointSpec
import proofs.«106387_j12635793785610_1_alg».proof.Proof.JointBlock
import proofs.«106387_j12635793785610_1_alg».proof.Proof.RegionEntry
import Idealize.ShloMosaic.Lib.Pipeline.Value
import Idealize.ShloMosaic.Lib.ValueIdx

noncomputable section

open scoped BigOperators

namespace Cert.KernelIdeal.JointArray

open Cert.KernelIdeal Cert.KernelIdeal.Gen Cert.KernelIdeal.Value Cert.Joint
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off4 : (![0, 0, 0, 0] : Fin 4 → Nat) = fun _ => 0 := funext fun a => by fin_cases a <;> rfl
theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- Frame `p` of the half `s` of the first sequence is frame `128·s + p`. -/
abbrev frameOf (s : Fin 2) (p : Fin 128) : Fin 256 :=
  ⟨128 * s.val + p.val, by have := s.isLt; have := p.isLt; omega⟩

/-- The joint function of core `c`'s argument arrays as launched. -/
abbrev jointOf (c : Dev nD) : S8x256x64x128.Idx → EReal :=
  joint (m ((c : Thread nD τ).loc main_arg0)) (m ((c : Thread nD τ).loc main_arg2))
    (m ((c : Thread nD τ).loc main_arg4)) (m ((c : Thread nD τ).loc main_arg5))

/-- A block computed from input blocks that are the rows of `f`, `g`, the weights and the bias belonging to batch row `n`
    and half `s` is the joint function on that rectangle. -/
theorem block_joint (f : S256x8x512.Idx → EReal) (g : S8x64x512.Idx → EReal) (W : S1024x128.Idx → EReal)
    (b : S128.Idx → EReal) (x0 : FVec Ideal S1x128x512 .f32) (x1 : FVec Ideal S1x64x512 .f32)
    (x2 x3 : FVec Ideal S512x128 .f32) (x4 : FVec Ideal S128 .f32) (n : Fin 8) (s : Fin 2)
    (h0 : ∀ (p : Fin 128) (k : Fin 512), x0 (ix3 (0 : Fin 1) p k) = f (ix3 (frameOf s p) n k))
    (h1 : ∀ (u : Fin 64) (k : Fin 512), x1 (ix3 (0 : Fin 1) u k) = g (ix3 n u k))
    (h2 : ∀ (k : Fin 512) (v : Fin 128), x2 (ix2 k v) = W (ix2 (upperRow k) v))
    (h3 : ∀ (k : Fin 512) (v : Fin 128), x3 (ix2 k v) = W (ix2 (lowerRow k) v))
    (h4 : ∀ v : Fin 128, x4 (ix1 v) = b (ix1 v))
    (z : Fin 1) (p : Fin 128) (u : Fin 64) (v : Fin 128) :
    k0_pay1 (F := Ideal) x0 x1 x2 x3 x4 (ix4 z p u v) = jointAt f g W b n (frameOf s p) u v := by
  rw [JointBlock.pay_apply]
  unfold jointAt
  simp only [h0, h1, h2, h3, h4]

/-- The printed index maps, decided over the sixteen grid points: the block of `f` moves with the output's on its first
    two axes, the block of `g` on the first only, the weights and the bias stay; the output's block index is
    `(n, s, 0, 0)` with `n ≤ 7`, `s ≤ 1`. -/
theorem idx_facts : ∀ t : Fin cfg0.N,
    win0_0.index t (0 : Fin 3) = win0_5.index t (0 : Fin 4)
    ∧ win0_0.index t (1 : Fin 3) = win0_5.index t (1 : Fin 4)
    ∧ win0_0.index t (2 : Fin 3) = 0
    ∧ win0_1.index t (0 : Fin 3) = win0_5.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 4) ≤ 7
    ∧ win0_5.index t (1 : Fin 4) ≤ 1
    ∧ win0_5.index t (2 : Fin 4) = 0
    ∧ win0_5.index t (3 : Fin 4) = 0 :=
  (by decide +kernel : ∀ t : Fin grid0.N, _)

/-- Every pair (batch row, half) is some grid point's. -/
theorem idx_onto : ∀ (q0 : Fin 8) (q1 : Fin 2), ∃ t : Fin cfg0.N, win0_5.index t = ![q0.val, q1.val, 0, 0] :=
  (by decide +kernel : ∀ (q0 : Fin 8) (q1 : Fin 2), ∃ t : Fin grid0.N, win0_5.index t = ![q0.val, q1.val, 0, 0])

/-- WHAT POINT `t` WRITES BACK is block `t` of the joint function of the argument arrays. -/
theorem flushed_eq (c : Dev nD) (t : Fin cfg0.N) :
    (dats m 0 c).flushed 5 t = ((cfg0.win 5).blk t).view.read (Elt Ideal) (jointOf m c) := by
  rw [flushed5]
  unfold out0_5
  rw [View.canon_unit_zero off4]
  simp only [View.ld_unit_zero (S := S1x128x512) off3, View.ld_unit_zero (S := S1x64x512) off3,
    View.ld_unit_zero (S := S512x128) off2, View.ld_unit_zero (S := S128) off1]
  obtain ⟨a00, a01, a02, a10, a11, a12, a20, a21, a30, a31, a40, b0, b1, b2, b3⟩ := idx_facts t
  funext j
  obtain ⟨z, p, u, v, rfl⟩ : ∃ (z : Fin 1) (p : Fin 128) (u : Fin 64) (v : Fin 128), j = ix4 z p u v :=
    ⟨j 0, j 1, j 2, j 3, eq_ix4 j⟩
  have hz : z.val = 0 := by omega
  show k0_pay1 (F := Ideal) (iblk m c 0 t) (iblk m c 1 t) (iblk m c 2 t) (iblk m c 3 t) (iblk m c 4 t) (ix4 z p u v)
      = jointOf m c (((cfg0.win 5).blk t).view.emb (ix4 z p u v))
  refine (block_joint (m ((c : Thread nD τ).loc main_arg0)) (m ((c : Thread nD τ).loc main_arg2))
      (m ((c : Thread nD τ).loc main_arg4)) (m ((c : Thread nD τ).loc main_arg5))
      (iblk m c 0 t) (iblk m c 1 t) (iblk m c 2 t) (iblk m c 3 t) (iblk m c 4 t)
      (⟨win0_5.index t (0 : Fin 4), by omega⟩ : Fin 8) (⟨win0_5.index t (1 : Fin 4), by omega⟩ : Fin 2)
      ?_ ?_ ?_ ?_ ?_ z p u v).trans ?_
  · -- the block of the batch-major copy of `f`: batch row `n`, frames of the half `s`
    intro p k
    show V m c main_v0 (((cfg0.win 0).blk t).view.emb (ix3 (0 : Fin 1) p k)) = _
    have e : ((cfg0.win 0).blk t).view.emb (ix3 (0 : Fin 1) p k)
        = ix3 (⟨win0_5.index t (0 : Fin 4), by omega⟩ : Fin 8)
            (frameOf (⟨win0_5.index t (1 : Fin 4), by omega⟩ : Fin 2) p) k :=
      funext fun a => Fin.ext (by
        match a with
        | ⟨0, _⟩ => show win0_0.index t (0 : Fin 3) * 1 + 1 * 0 = win0_5.index t (0 : Fin 4); omega
        | ⟨1, _⟩ => show win0_0.index t (1 : Fin 3) * 128 + 1 * p.val = 128 * win0_5.index t (1 : Fin 4) + p.val; omega
        | ⟨2, _⟩ => show win0_0.index t (2 : Fin 3) * 512 + 1 * k.val = k.val; omega)
    rw [e]
    exact RegionEntry.frames_apply m c _ _ k
  · -- the block of `g`: batch row `n`, whole
    intro u k
    show V m c main_arg2 (((cfg0.win 1).blk t).view.emb (ix3 (0 : Fin 1) u k)) = _
    have e : ((cfg0.win 1).blk t).view.emb (ix3 (0 : Fin 1) u k)
        = ix3 (⟨win0_5.index t (0 : Fin 4), by omega⟩ : Fin 8) u k :=
      funext fun a => Fin.ext (by
        match a with
        | ⟨0, _⟩ => show win0_1.index t (0 : Fin 3) * 1 + 1 * 0 = win0_5.index t (0 : Fin 4); omega
        | ⟨1, _⟩ => show win0_1.index t (1 : Fin 3) * 64 + 1 * u.val = u.val; omega
        | ⟨2, _⟩ => show win0_1.index t (2 : Fin 3) * 512 + 1 * k.val = k.val; omega)
    rw [e, V_main_arg2]
  · -- the upper weights, whole
    intro k v
    show V m c main_v1 (((cfg0.win 2).blk t).view.emb (ix2 k v)) = _
    have e : ((cfg0.win 2).blk t).view.emb (ix2 k v) = ix2 k v :=
      funext fun a => Fin.ext (by
        match a with
        | ⟨0, _⟩ => show win0_2.index t (0 : Fin 2) * 512 + 1 * k.val = k.val; omega
        | ⟨1, _⟩ => show win0_2.index t (1 : Fin 2) * 128 + 1 * v.val = v.val; omega)
    rw [e]
    exact RegionEntry.upper_apply m c k v
  · -- the lower weights, whole
    intro k v
    show V m c main_v2 (((cfg0.win 3).blk t).view.emb (ix2 k v)) = _
    have e : ((cfg0.win 3).blk t).view.emb (ix2 k v) = ix2 k v :=
      funext fun a => Fin.ext (by
        match a with
        | ⟨0, _⟩ => show win0_3.index t (0 : Fin 2) * 512 + 1 * k.val = k.val; omega
        | ⟨1, _⟩ => show win0_3.index t (1 : Fin 2) * 128 + 1 * v.val = v.val; omega)
    rw [e]
    exact RegionEntry.lower_apply m c k v
  · -- the bias, whole
    intro v
    show V m c main_arg5 (((cfg0.win 4).blk t).view.emb (ix1 v)) = _
    have e : ((cfg0.win 4).blk t).view.emb (ix1 v) = ix1 v :=
      funext fun a => Fin.ext (by
        match a with
        | ⟨0, _⟩ => show win0_4.index t (0 : Fin 1) * 128 + 1 * v.val = v.val; omega)
    rw [e, V_main_arg5]
  · -- the output's rectangle: batch row `n`, frames of the half `s`
    have e : ((cfg0.win 5).blk t).view.emb (ix4 z p u v)
        = ix4 (⟨win0_5.index t (0 : Fin 4), by omega⟩ : Fin 8)
            (frameOf (⟨win0_5.index t (1 : Fin 4), by omega⟩ : Fin 2) p) u v :=
      funext fun a => Fin.ext (by
        match a with
        | ⟨0, _⟩ => show win0_5.index t (0 : Fin 4) * 1 + 1 * z.val = win0_5.index t (0 : Fin 4); omega
        | ⟨1, _⟩ => show win0_5.index t (1 : Fin 4) * 128 + 1 * p.val = 128 * win0_5.index t (1 : Fin 4) + p.val; omega
        | ⟨2, _⟩ => show win0_5.index t (2 : Fin 4) * 64 + 1 * u.val = u.val; omega
        | ⟨3, _⟩ => show win0_5.index t (3 : Fin 4) * 128 + 1 * v.val = v.val; omega)
    rw [e]
    rfl

/-- An index of the output is in point `t`'s block iff each coordinate is in the block's range on its axis. -/
theorem mem_blk (t : Fin cfg0.N) (i : S8x256x64x128.Idx) :
    i ∈ ((cfg0.win 5).blk t).view.set ↔ ∀ a : Fin 4, win0_5.index t a * S1x128x64x128.size a ≤ (i a).val
      ∧ (i a).val < win0_5.index t a * S1x128x64x128.size a + S1x128x64x128.size a := by
  show i ∈ ((View.whole main_v3).slice (win0_5.rect t)).set ↔ _
  rw [View.set_slice_whole, Rect.mem_set_unit]
  exact Iff.rfl

/-- Every index of the output is in the block of the point for its batch row and the half its frame lies in. -/
theorem covered (i : S8x256x64x128.Idx) :
    ∃ t : Fin cfg0.N, (cfg0.win 5).flush t = true ∧ i ∈ ((cfg0.win 5).blk t).view.set := by
  have h0 : (i 0).val < 8 := (i 0).isLt
  have h1 : (i 1).val < 256 := (i 1).isLt
  have h2 : (i 2).val < 64 := (i 2).isLt
  have h3 : (i 3).val < 128 := (i 3).isLt
  obtain ⟨t, ht⟩ := idx_onto ⟨(i 0).val, h0⟩ ⟨(i 1).val / 128, by omega⟩
  have q0 : win0_5.index t (0 : Fin 4) = (i 0).val := congrFun ht 0
  have q1 : win0_5.index t (1 : Fin 4) = (i 1).val / 128 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 128 ≤ (i 1).val ∧ (i 1).val < win0_5.index t (1 : Fin 4) * 128 + 128; omega
  | ⟨2, _⟩ => show win0_5.index t (2 : Fin 4) * 64 ≤ (i 2).val ∧ (i 2).val < win0_5.index t (2 : Fin 4) * 64 + 64; omega
  | ⟨3, _⟩ => show win0_5.index t (3 : Fin 4) * 128 ≤ (i 3).val ∧ (i 3).val < win0_5.index t (3 : Fin 4) * 128 + 128; omega

/-- THE OUTPUT ARRAY after the run is the joint function of the argument arrays. -/
theorem final (c : Dev nD) : (dats m 0 c).arrAt 5 cfg0.N = jointOf m c :=
  (dats m 0 c).arrAt_eq_of_cover 5 (jointOf m c) (fun t _ => flushed_eq m c t) covered

/-- The kernel's run, read: the result array at the joint function of the arguments, the arguments unchanged. -/
theorem run : θ_run defs (onTc (τ := τ) (main (F := Ideal))) ⟨m, fun _ => 0, ρ⟩ fun r => ∀ c : Dev nD,
      r.2.mem ((c : Thread nD τ).loc main_v3) = jointOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.JointArray

end
-- ==== Proof.RefJoint.lean ====
/-
  The reference program's result, read one operation at a time, is the joint function of its arguments.

  The reference slices the weight matrix into its two halves, contracts the upper half against `f` over the feature axis
  (giving `[128, 256, 8]`: channel, frame, batch row), turns that to `[8, 256, 128]`, contracts `g` against the lower half
  (giving `[8, 64, 128]`), lays the first along a new unit axis 2 and the second along a new unit axis 1, repeats both to
  `[8, 256, 64, 128]`, adds them, and adds the bias repeated along the three leading axes. Read at `(n, t, u, v)` the
  chain of layout steps lands on `(t, n, k)` of `f`, `(n, u, k)` of `g`, rows `k` and `512 + k` of the weights and
  entry `v` of the bias. The first contraction multiplies weight by feature, the joint function feature by weight:
  multiplication on the extended reals is commutative, and that is the only law used.
-/
import proofs.«106387_j12635793785610_1_alg».proof.Proof.Gen.ReferenceIdeal.Read
import proofs.«106387_j12635793785610_1_alg».proof.Proof.JointSpec

noncomputable section

open scoped BigOperators

namespace Cert.ReferenceIdeal.RefJoint

open Cert.ReferenceIdeal Cert.ReferenceIdeal.Read Cert.Joint Idealize.ShloMosaic Idealize.ShloMosaic.ValueIdx

/-- The reference's last stage is the joint function, index by index. -/
theorem ref_eq_joint (x0 : FVec Ideal S256x8x512 .f32) (x2 : FVec Ideal S8x64x512 .f32)
    (x4 : FVec Ideal S1024x128 .f32) (x5 : FVec Ideal S128 .f32) :
    val_main_v12 (F := Ideal) x0 x2 x4 x5 = joint x0 x2 x4 x5 := by
  funext i
  obtain ⟨n, t, u, v, rfl⟩ : ∃ (n : Fin 8) (t : Fin 256) (u : Fin 64) (v : Fin 128), i = ix4 n t u v :=
    ⟨i 0, i 1, i 2, i 3, eq_ix4 i⟩
  rw [joint_ix4, val_main_v12_apply, val_main_v9_apply, val_main_v7_apply, val_main_v5_apply, val_main_v3_apply,
    val_main_v2_apply, val_main_v8_apply, val_main_v6_apply, val_main_v4_apply, val_main_v11_apply, val_main_v10_apply]
  simp only [val_main_v0_apply, val_main_v1_apply, Ideal.addf_def]
  unfold jointAt
  refine congrArg₂ (· + ·) (congrArg₂ (· + ·) (Finset.sum_congr rfl fun k _ => ?_) (Finset.sum_congr rfl fun k _ => ?_)) ?_
  · -- weight row `k`, channel `v`, times feature `k` of frame `t` in batch row `n`
    have eW : idx_main_v0 (lidx_main_v2 (idx_main_v3 (idx_main_v5 (idx_main_v7 (ix4 n t u v)))) k) = ix2 (upperRow k) v :=
      funext fun a => Fin.ext (by match a with | ⟨0, _⟩ => rfl | ⟨1, _⟩ => rfl)
    have ef : ridx_main_v2 (idx_main_v3 (idx_main_v5 (idx_main_v7 (ix4 n t u v)))) k = ix3 t n k :=
      funext fun a => Fin.ext (by match a with | ⟨0, _⟩ => rfl | ⟨1, _⟩ => rfl | ⟨2, _⟩ => rfl)
    rw [eW, ef, mul_comm]
  · -- feature `k` of frame `u` in batch row `n`, times weight row `512 + k`, channel `v`
    have eg : lidx_main_v4 (idx_main_v6 (idx_main_v8 (ix4 n t u v))) k = ix3 n u k :=
      funext fun a => Fin.ext (by match a with | ⟨0, _⟩ => rfl | ⟨1, _⟩ => rfl | ⟨2, _⟩ => rfl)
    have eW : idx_main_v1 (ridx_main_v4 (idx_main_v6 (idx_main_v8 (ix4 n t u v))) k) = ix2 (lowerRow k) v :=
      funext fun a => Fin.ext (by match a with | ⟨0, _⟩ => rfl | ⟨1, _⟩ => rfl)
    rw [eg, eW]
  · have eb : idx_main_v10 (idx_main_v11 (ix4 n t u v)) = ix1 v :=
      funext fun a => Fin.ext (by match a with | ⟨0, _⟩ => rfl)
    rw [eb]

end Cert.ReferenceIdeal.RefJoint

end
-- ==== Proof.lean ====
/-
  The joint network of a transducer: the kernel against its reference, equal on the extended reals.

  Both programs compute, for batch row `n`, frame `t` of the first sequence `f : [256, 8, 512]` (time-major), frame `u` of the
  second sequence `g : [8, 64, 512]` and output channel `v`,

      out (n, t, u, v) = ( Σ_k f (t, n, k) · W (k, v)  +  Σ_k g (n, u, k) · W (512 + k, v) )  +  b v

  (Proof/JointSpec.lean), and both return the integer lengths of the first sequence as they were given.

  The kernel turns `f` batch-major and halves the weight matrix on the host (Proof/RegionEntry.lean), then runs a grid of
  8 batch rows × 2 halves of the frames of `f`: each point multiplies its 128 frames of `f` and the 64 frames of `g` by the
  two halves of the weights on the matrix unit (operands narrowed: a change of format, the identity on the extended
  reals), pairs every row of the first product with every row of the second, adds the bias, and stores the block
  (Proof/JointBlock.lean, at an index); the sixteen blocks tile the output (Proof/JointArray.lean). The reference contracts
  the upper weights against `f` and `g` against the lower weights with two host contractions and adds the same three terms
  in the same grouping (Proof/RefJoint.lean, over the generated reading of its run). Every step on either side is a
  re-laying of entries or a finite sum of products; the two sides differ only in the order of the factors of the first
  product (weight · feature in the reference), so commutativity of multiplication on the extended reals is the one law
  used, and finiteness of the inputs is never needed.

  The three frames are the generated ones (the reference's is its generated run with the results dropped); the
  idealization rewrote no operation, so `preserves` is `True`.
-/
import proofs.«106387_j12635793785610_1_alg».proof.Defs
import proofs.«106387_j12635793785610_1_alg».proof.Proof.Gen.Kernel
import proofs.«106387_j12635793785610_1_alg».proof.Proof.Gen.Kernel.Skeleton
import proofs.«106387_j12635793785610_1_alg».proof.Proof.Gen.Kernel.Launch
import proofs.«106387_j12635793785610_1_alg».proof.Proof.Gen.Kernel.Points
import proofs.«106387_j12635793785610_1_alg».proof.Proof.Gen.Kernel.Frame
import proofs.«106387_j12635793785610_1_alg».proof.Proof.Gen.KernelIdeal
import proofs.«106387_j12635793785610_1_alg».proof.Proof.Gen.KernelIdeal.Skeleton
import proofs.«106387_j12635793785610_1_alg».proof.Proof.Gen.KernelIdeal.Launch
import proofs.«106387_j12635793785610_1_alg».proof.Proof.Gen.KernelIdeal.Points
import proofs.«106387_j12635793785610_1_alg».proof.Proof.Gen.KernelIdeal.Frame
import proofs.«106387_j12635793785610_1_alg».proof.Proof.Gen.ReferenceIdeal
import proofs.«106387_j12635793785610_1_alg».proof.Proof.Gen.Pre_finite_inputs
import proofs.«106387_j12635793785610_1_alg».proof.Proof.Gen.KernelIdeal.Value
import proofs.«106387_j12635793785610_1_alg».proof.Proof.Gen.ReferenceIdeal.Run
import proofs.«106387_j12635793785610_1_alg».proof.Proof.Gen.ReferenceIdeal.Read
import proofs.«106387_j12635793785610_1_alg».proof.Proof.JointArray
import proofs.«106387_j12635793785610_1_alg».proof.Proof.RefJoint
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments, the kernel's output array and the reference's both end at the joint
    function of the arguments, and both return the lengths as given. -/
theorem algebraic : Cert.algebraic_KernelIdeal_ReferenceIdeal := by
  intro m ρ m' ρ' _ hagree
  refine ⟨fun c => Cert.KernelIdeal.JointArray.jointOf m c,
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.JointArray.run m ρ)
    obtain ⟨hv, h0, h1, h2, h3, h4, h5⟩ := h c
    exact ⟨hv, h1, h0, h1, h2, h3, h4, h5⟩
  · refine (θ_run Cert.ReferenceIdeal.defs _ _).mono (fun r h c => ?_)
      (Cert.ReferenceIdeal.Value.run (F := Ideal) m' ρ')
    obtain ⟨hv, _, h0, h1, h2, h3, h4, h5⟩ := h c
    obtain ⟨e0, e1, e2, _, e4, e5⟩ := hagree c
    refine ⟨hv.trans ?_, h1.trans e1, h0, h1, h2, h3, h4, h5⟩
    rw [e0, e2, e4, e5]
    exact (Cert.ReferenceIdeal.Read.val_main_v12_eq _ _ _ _).trans (Cert.ReferenceIdeal.RefJoint.ref_eq_joint _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
